-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x256 : Shape := ⟨3, ![32, 1024, 256]⟩
abbrev S_ : Shape := ⟨0, ![]⟩

class Facts : Prop where
  bcast_S_S32x1024x256 : S_.BroadcastsInDim S32x1024x256 (![] : Fin 0 → Fin S32x1024x256.rank)
  reducesTo_S32x1024x256_S_d0_1_2 : S32x1024x256.ReducesTo [0, 1, 2] S_
  h_S_ : 0 < S_.numel

variable [Facts]

def fn {F : FTy → Type} [FloatOps F] (main_arg0 : FVec F S32x1024x256 .f32) (main_arg1 : FVec F S32x1024x256 .f32) : IVec S_ 1 :=
  let main_v0 : FVec F S32x1024x256 .f32 := Host.absf main_arg0
  let main_cst : FVec F S_ .f32 := constant S_ .f32 0x7F800000#32
  let main_v1 : FVec F S32x1024x256 .f32 := broadcastInDim S32x1024x256 ![] bcast_S_S32x1024x256 main_cst
  let main_v2 : IVec S32x1024x256 1 := cmpf .olt main_v0 main_v1
  let main_c : IVec S_ 1 := constantI S_ 1 1#1
  let main_v3 : IVec S_ 1 := (fun x v => Host.reduce IntOp.andi x v reducesTo_S32x1024x256_S_d0_1_2 h_S_) main_v2 main_c
  let main_v4 : FVec F S32x1024x256 .f32 := Host.absf main_arg1
  let main_cst_0 : FVec F S_ .f32 := constant S_ .f32 0x7F800000#32
  let main_v5 : FVec F S32x1024x256 .f32 := broadcastInDim S32x1024x256 ![] bcast_S_S32x1024x256 main_cst_0
  let main_v6 : IVec S32x1024x256 1 := cmpf .olt main_v4 main_v5
  let main_c_1 : IVec S_ 1 := constantI S_ 1 1#1
  let main_v7 : IVec S_ 1 := (fun x v => Host.reduce IntOp.andi x v reducesTo_S32x1024x256_S_d0_1_2 h_S_) main_v6 main_c_1
  let main_v8 : IVec S_ 1 := andi main_v3 main_v7
  main_v8
-- ==== Kernel.lean ====
abbrev S32x1024x256 : Shape := ⟨3, ![32, 1024, 256]⟩
abbrev S32x1x2048 : Shape := ⟨3, ![32, 1, 2048]⟩
abbrev S1x1024x256 : Shape := ⟨3, ![1, 1024, 256]⟩
abbrev S1x1x2048 : Shape := ⟨3, ![1, 1, 2048]⟩
abbrev S1024x256 : Shape := ⟨2, ![1024, 256]⟩
abbrev S256 : Shape := ⟨1, ![256]⟩
abbrev S1x256 : Shape := ⟨2, ![1, 256]⟩
abbrev S1024 : Shape := ⟨1, ![1024]⟩
abbrev S1x1x1024 : Shape := ⟨3, ![1, 1, 1024]⟩
abbrev S32x2048 : Shape := ⟨2, ![32, 2048]⟩

abbrev nBuf : Space → Nat
  | .hbm => 4
  | .vmem => 6
  | .smem => 0
  | _ => 0

abbrev bufTy : (tb : Table) → Fin (tcTables nBuf tb) → BufTy
  | .hbm, ⟨0, _⟩ => ⟨S32x1024x256, .f32⟩
  | .hbm, ⟨1, _⟩ => ⟨S32x1024x256, .f32⟩
  | .hbm, ⟨2, _⟩ => ⟨S32x1x2048, .f32⟩
  | .hbm, ⟨3, _⟩ => ⟨S32x2048, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x256, .f32⟩
  | .local _ .vmem, ⟨3, _⟩ => ⟨S1x1024x256, .f32⟩
  | .local _ .vmem, ⟨4, _⟩ => ⟨S1x1x2048, .f32⟩
  | .local _ .vmem, ⟨5, _⟩ => ⟨S1x1x2048, .f32⟩
  | _, _ => ⟨S32x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  reduces_S1024x256_S256 : S1024x256.Reduces [0] S256
  shapeCasts_S256_S1x256 : S256.ShapeCasts S1x256
  broadcasts_S1x256_S1024x256 : S1x256.Broadcasts S1024x256
  reduces_S1024x256_S1024 : S1024x256.Reduces [1] S1024
  shapeCasts_S1024_S1x1x1024 : S1024.ShapeCasts S1x1x1024
  inb_S1x1x2048_S1x1x1024_0_0_0 : ∀ a, (![0, 0, 0] : Fin 3 → Nat) a + S1x1x1024.size a ≤ S1x1x2048.size a
  h_S1x1x1024 : 0 < S1x1x1024.numel
  inb_S1x1x2048_S1x1x1024_0_0_1024 : ∀ a, (![0, 0, 1024] : Fin 3 → Nat) a + S1x1x1024.size a ≤ S1x1x2048.size a
  shapeCasts_S32x1x2048_S32x2048 : S32x1x2048.ShapeCasts S32x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S32x1024x256.size a
  hwx0_0 : ∀ i : grid0.Coords, EltTy.bits .f32 = 32 ∨ (Rect.block (s := S32x1024x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S32x1024x256.size a
  hwx0_1 : ∀ i : grid0.Coords, EltTy.bits .f32 = 32 ∨ (Rect.block (s := S32x1024x256) S1x1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S32x1x2048.size a
  hwx0_2 : ∀ i : grid0.Coords, EltTy.bits .f32 = 32 ∨ (Rect.block (s := S32x1x2048) S1x1x2048.size (cc0_transform_2 i) (hinb0_2 i)).WholeWords (EltTy.packing .f32)

variable [Facts₀]

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x1024x256 : Shape := ⟨3, ![32, 1024, 256]⟩
abbrev S32x1024x1024 : Shape := ⟨3, ![32, 1024, 1024]⟩
abbrev S_ : Shape := ⟨0, ![]⟩
abbrev S32x1024 : Shape := ⟨2, ![32, 1024]⟩
abbrev S32x2048 : Shape := ⟨2, ![32, 2048]⟩

abbrev nBuf : Space → Nat
  | .hbm => 8
  | .vmem => 0
  | .smem => 0
  | _ => 0

abbrev bufTy : (tb : Table) → Fin (tcTables nBuf tb) → BufTy
  | .hbm, ⟨0, _⟩ => ⟨S32x1024x256, .f32⟩
  | .hbm, ⟨1, _⟩ => ⟨S32x1024x256, .f32⟩
  | .hbm, ⟨2, _⟩ => ⟨S32x1024x1024, .f32⟩
  | .hbm, ⟨3, _⟩ => ⟨S_, .f32⟩
  | .hbm, ⟨4, _⟩ => ⟨S32x1024, .f32⟩
  | .hbm, ⟨5, _⟩ => ⟨S_, .f32⟩
  | .hbm, ⟨6, _⟩ => ⟨S32x1024, .f32⟩
  | .hbm, ⟨7, _⟩ => ⟨S32x2048, .f32⟩
  | _, _ => ⟨S32x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  reducesTo_S32x1024x1024_S32x1024_d1 : S32x1024x1024.ReducesTo [1] S32x1024
  h_S_ : 0 < S_.numel
  reducesTo_S32x1024x1024_S32x1024_d2 : S32x1024x1024.ReducesTo [2] S32x1024
  concatenates_S32x1024_S32x1024_S32x2048_d1 : Shape.Concatenates [S32x1024, S32x1024] S32x2048 1
  dot_S32x1024x256_S32x1024x256_S32x1024x1024_2_2_1_1_0_0_wf : DotDims.WF S32x1024x256 S32x1024x256 S32x1024x1024 [2] [2] [1] [1] [0] [0]

variable [Facts₀]

def dot_S32x1024x256_S32x1024x256_S32x1024x1024_2_2_1_1_0_0 : DotDims S32x1024x256 S32x1024x256 S32x1024x1024 where
  lhsContracting := [2]
  rhsContracting := [2]
  lhsNonContracting := [1]
  rhsNonContracting := [1]
  lhsBatch := [0]
  rhsBatch := [0]
  wf := dot_S32x1024x256_S32x1024x256_S32x1024x1024_2_2_1_1_0_0_wf

class Facts : Prop extends Facts₀ where

variable [Facts]
-- ==== Proof.Spec.lean ====
/-
  The mathematics of the certificate, with no program in sight.

  For a batch `b`, write `s(n, m) = Σ_d x(b, n, d) · y(b, m, d)` for the matrix of inner products of the rows of
  `x(b)` with the rows of `y(b)`. The result has 2048 entries per batch: the first 1024 are the sums of `s` down
  its columns, `Σ_n s(n, m)`, the last 1024 the sums along its rows, `Σ_m s(n, m)` (`scoreSums`).
  The same numbers can be had without ever forming `s`: summing over `n` first,
  `Σ_n Σ_d x(n, d) · y(m, d) = Σ_d y(m, d) · (Σ_n x(n, d))`, and likewise for the rows (`factoredSums`).
  The exchange is distributivity of the product over a finite sum together with a swap of two finite sums. On the
  extended reals distributivity fails at the infinities, so the law is proved for entries that are real numbers:
  there both sides are coercions of one real number.
-/
import Idealize.ShloMosaic.Lib.ValueIdx

noncomputable section

open scoped BigOperators

namespace Cert.PairSums

open Idealize.ShloMosaic Idealize.ShloMosaic.ValueIdx

/-- The shape of each of the two argument arrays: 32 batches of 1024 rows of 256 entries. -/
abbrev Arg : Shape := ⟨3, ![32, 1024, 256]⟩
/-- The shape of the result: per batch the 1024 column sums followed by the 1024 row sums. -/
abbrev Out : Shape := ⟨2, ![32, 2048]⟩

/-- The result as sums of the inner-product matrix: entry `r < 1024` of batch `b` is `Σ_n Σ_d x(b,n,d) · y(b,r,d)`,
    entry `r ≥ 1024` is `Σ_m Σ_d x(b,r-1024,d) · y(b,m,d)`. -/
def scoreSums (x y : Arg.Idx → EReal) (b : Fin 32) (r : Fin 2048) : EReal :=
  if h : r.val < 1024 then
    ∑ n : Fin 1024, ∑ d : Fin 256, x (ix3 b n d) * y (ix3 b (⟨r.val, h⟩ : Fin 1024) d)
  else
    ∑ m : Fin 1024, ∑ d : Fin 256, x (ix3 b (⟨r.val - 1024, by have := r.isLt; omega⟩ : Fin 1024) d) * y (ix3 b m d)

/-- The same result with the sum over the other array's rows taken first: entry `r < 1024` of batch `b` is
    `Σ_d y(b,r,d) · (Σ_n x(b,n,d))`, entry `r ≥ 1024` is `Σ_d x(b,r-1024,d) · (Σ_m y(b,m,d))`. Stated for any number `B`
    of batches: the whole arrays have 32, one block of them has one. -/
def factoredSums {B : Nat} (x y : (⟨3, ![B, 1024, 256]⟩ : Shape).Idx → EReal) (b : Fin B) (r : Fin 2048) : EReal :=
  if h : r.val < 1024 then
    ∑ d : Fin 256, y (ix3 b (⟨r.val, h⟩ : Fin 1024) d) * ∑ n : Fin 1024, x (ix3 b n d)
  else
    ∑ d : Fin 256, x (ix3 b (⟨r.val - 1024, by have := r.isLt; omega⟩ : Fin 1024) d) * ∑ m : Fin 1024, y (ix3 b m d)

/-- An entry of the first half, named by its place `r` among the 1024 column sums. -/
theorem factoredSums_lo {B : Nat} (x y : (⟨3, ![B, 1024, 256]⟩ : Shape).Idx → EReal) (b : Fin B) (q : Fin 2048)
    (r : Fin 1024) (h : q.val = r.val) :
    factoredSums x y b q = ∑ d : Fin 256, y (ix3 b r d) * ∑ n : Fin 1024, x (ix3 b n d) := by
  unfold factoredSums
  rw [dif_pos (show q.val < 1024 by omega)]
  rw [show (⟨q.val, by omega⟩ : Fin 1024) = r from Fin.ext h]

/-- An entry of the second half, named by its place `r` among the 1024 row sums. -/
theorem factoredSums_hi {B : Nat} (x y : (⟨3, ![B, 1024, 256]⟩ : Shape).Idx → EReal) (b : Fin B) (q : Fin 2048)
    (r : Fin 1024) (h : q.val = 1024 + r.val) :
    factoredSums x y b q = ∑ d : Fin 256, x (ix3 b r d) * ∑ m : Fin 1024, y (ix3 b m d) := by
  unfold factoredSums
  rw [dif_neg (show ¬ q.val < 1024 by omega)]
  rw [show (⟨q.val - 1024, by omega⟩ : Fin 1024) = r from Fin.ext (by show q.val - 1024 = r.val; omega)]

/-- The factored sums of batch `b` depend only on that batch's entries: two pairs of arrays that agree there (one
    may be a block holding just that batch) give the same sums. -/
theorem factoredSums_congr {B B' : Nat} (x y : (⟨3, ![B, 1024, 256]⟩ : Shape).Idx → EReal)
    (x' y' : (⟨3, ![B', 1024, 256]⟩ : Shape).Idx → EReal) (b : Fin B) (b' : Fin B')
    (hx : ∀ (n : Fin 1024) (d : Fin 256), x (ix3 b n d) = x' (ix3 b' n d))
    (hy : ∀ (n : Fin 1024) (d : Fin 256), y (ix3 b n d) = y' (ix3 b' n d)) (r r' : Fin 2048) (hr : r.val = r'.val) :
    factoredSums x y b r = factoredSums x' y' b' r' := by
  obtain rfl : r = r' := Fin.ext hr
  unfold factoredSums
  simp only [hx, hy]

/-- The coercion of the reals into the extended reals commutes with finite sums (it is additive). -/
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- For real entries, `Σ_n Σ_d a(n,d) · w(d) = Σ_d w(d) · Σ_n a(n,d)`: swap the two sums and pull the factor that
    does not depend on `n` out of the inner one. -/
theorem sum_sum_mul_right {N D : Type*} [Fintype N] [Fintype D] (a : N → D → EReal) (w : D → EReal)
    (ha : ∀ n d, ∃ r : ℝ, a n d = (r : EReal)) (hw : ∀ d, ∃ r : ℝ, w d = (r : EReal)) :
    ∑ n, ∑ d, a n d * w d = ∑ d, w d * ∑ n, a n d := by
  choose a' ha' using ha
  choose w' hw' using hw
  simp only [ha', hw', ← EReal.coe_mul, ← coe_sum]
  refine congrArg Real.toEReal ?_
  rw [Finset.sum_comm]
  refine Finset.sum_congr rfl fun d _ => ?_
  rw [Finset.mul_sum]
  exact Finset.sum_congr rfl fun n _ => mul_comm _ _

/-- The same with the fixed factor on the left: `Σ_n Σ_d w(d) · a(n,d) = Σ_d w(d) · Σ_n a(n,d)`. -/
theorem sum_sum_mul_left {N D : Type*} [Fintype N] [Fintype D] (a : N → D → EReal) (w : D → EReal)
    (ha : ∀ n d, ∃ r : ℝ, a n d = (r : EReal)) (hw : ∀ d, ∃ r : ℝ, w d = (r : EReal)) :
    ∑ n, ∑ d, w d * a n d = ∑ d, w d * ∑ n, a n d :=
  (Finset.sum_congr rfl fun n _ => Finset.sum_congr rfl fun d _ => mul_comm _ _).trans (sum_sum_mul_right a w ha hw)

/-- On arrays of real numbers the two forms of the result agree, entry by entry. -/
theorem scoreSums_eq_factoredSums (x y : Arg.Idx → EReal)
    (hx : ∀ i, ∃ r : ℝ, x i = (r : EReal)) (hy : ∀ i, ∃ r : ℝ, y i = (r : EReal)) (b : Fin 32) (r : Fin 2048) :
    scoreSums x y b r = factoredSums x y b r := by
  unfold scoreSums factoredSums
  split
  · exact sum_sum_mul_right (fun (n : Fin 1024) (d : Fin 256) => x (ix3 b n d)) _ (fun n d => hx _) (fun d => hy _)
  · exact sum_sum_mul_left (fun (m : Fin 1024) (d : Fin 256) => y (ix3 b m d)) _ (fun m d => hy _) (fun d => hx _)

end Cert.PairSums

end
-- ==== Proof.Finite.lean ====
/-
  The precondition read back: every entry of both argument arrays is a real number.

  The precondition asks, of each argument array, that `|v| < +∞` hold at every entry (an "all" over the array), and
  joins the two answers by "and". At the ideal reading `|v|` is `max v (-v)` on the extended reals, which is `+∞` at
  both infinities; so an entry that passes the test is neither, that is, it is a real number.
-/
import proofs.«118468_j6691559047734_2_alg».proof.Pre_finite_inputs
import Idealize.ShloMosaic.Lib.ReduceAll
import Idealize.ShloMosaic.Lib.ValueIdx

noncomputable section

namespace Cert.PairSums

open Idealize.ShloMosaic

/-- An extended real whose absolute value `max v (-v)` is strictly below `+∞` is a real number. -/
theorem real_of_abs_lt_top (v : EReal) (h : Ideal.cmp .olt (max v (-v)) (Ideal.ofBits .f32 0x7F800000#32) = 1#1) :
    ∃ r : ℝ, v = (r : EReal) := by
  have htop : Ideal.ofBits .f32 0x7F800000#32 = ⊤ := by simp [Ideal.ofBits, Ideal.ieee]
  rw [htop] at h
  induction v using EReal.rec with
  | bot => simp [Ideal.cmp] at h
  | coe r => exact ⟨r, rfl⟩
  | top => simp [Ideal.cmp] at h

variable [Cert.Pre_finite_inputs.Facts]

/-- The scalar shape has one index. -/
instance : Subsingleton Cert.Pre_finite_inputs.S_.Idx := ⟨fun a b => funext fun d => d.elim0⟩

/-- If the printed test answers "true" on a pair of arrays, every entry of each is a real number. -/
theorem real_of_pre (x y : FVec Ideal Cert.Pre_finite_inputs.S32x1024x256 .f32)
    (h : Cert.Pre_finite_inputs.fn (F := Ideal) x y = fun _ => 1#1) :
    (∀ i, ∃ r : ℝ, x i = (r : EReal)) ∧ (∀ i, ∃ r : ℝ, y i = (r : EReal)) := by
  have h0 := congrFun h ValueIdx.ix0
  dsimp only [Cert.Pre_finite_inputs.fn] at h0
  obtain ⟨h1, h2⟩ := IntOp.andi_eq_one.1 h0
  exact ⟨fun i => real_of_abs_lt_top (x i) (Host.reduce_andi_all _ _ _ _ _ h1 i),
    fun i => real_of_abs_lt_top (y i) (Host.reduce_andi_all _ _ _ _ _ h2 i)⟩

end Cert.PairSums

end
-- ==== Proof.RefValue.lean ====
/-
  The reference's result, entry by entry.

  The reference forms the inner-product matrix `s(b, n, m) = Σ_d x(b,n,d) · y(b,m,d)`, sums it over `n` (from an
  initial value zero) into the column sums and over `m` into the row sums, and lays the two [32, 1024] arrays side by
  side along the second axis. So entry `(b, r)` of the result is the column sum `r` when `r < 1024` and the row sum
  `r - 1024` otherwise: `scoreSums`.
-/
import proofs.«118468_j6691559047734_2_alg».proof.Proof.Gen.ReferenceIdeal.Read
import proofs.«118468_j6691559047734_2_alg».proof.Proof.Spec

noncomputable section

open scoped BigOperators

namespace Cert.PairSums

open Cert.ReferenceIdeal Cert.ReferenceIdeal.Read Idealize.ShloMosaic Idealize.ShloMosaic.ValueIdx

variable [Cert.ReferenceIdeal.Facts]

/-- Entry `(b, n, m)` of the inner-product matrix reads row `n` of `x(b)` … -/
theorem lidx_eq (b : Fin 32) (n m : Fin 1024) (d : Fin 256) :
    lidx_main_v0 (ix3 b n m) d = ix3 b n d :=
  funext fun a => Fin.ext (by match a with | ⟨0, _⟩ => rfl | ⟨1, _⟩ => rfl | ⟨2, _⟩ => rfl)

/-- … against row `m` of `y(b)`. -/
theorem ridx_eq (b : Fin 32) (n m : Fin 1024) (d : Fin 256) :
    ridx_main_v0 (ix3 b n m) d = ix3 b m d :=
  funext fun a => Fin.ext (by match a with | ⟨0, _⟩ => rfl | ⟨1, _⟩ => rfl | ⟨2, _⟩ => rfl)

/-- The column sum `(b, m)` runs over the entries `(b, n, m)` of the matrix. -/
theorem idx1_eq (b : Fin 32) (m n : Fin 1024) : idx_main_v1 (ix2 b m) n = ix3 b n m :=
  funext fun a => Fin.ext (by match a with | ⟨0, _⟩ => rfl | ⟨1, _⟩ => rfl | ⟨2, _⟩ => rfl)

/-- The row sum `(b, n)` runs over the entries `(b, n, m)`. -/
theorem idx2_eq (b : Fin 32) (n m : Fin 1024) : idx_main_v2 (ix2 b n) m = ix3 b n m :=
  funext fun a => Fin.ext (by match a with | ⟨0, _⟩ => rfl | ⟨1, _⟩ => rfl | ⟨2, _⟩ => rfl)

/-- The column sums: `Σ_n Σ_d x(b,n,d) · y(b,m,d)` (the initial value is zero). -/
theorem colSums_apply (x y : (⟨S32x1024x256, .f32⟩ : BufTy).Contents (Elt Ideal)) (b : Fin 32) (m : Fin 1024) :
    val_main_v1 (F := Ideal) x y (ix2 b m) = ∑ n : Fin 1024, ∑ d : Fin 256, x (ix3 b n d) * y (ix3 b m d) := by
  rw [val_main_v1_apply, val_main_cst_apply, Ideal.ofBits_def, Ideal.ofBits_zero_f32, zero_add]
  refine Finset.sum_congr rfl fun n _ => ?_
  rw [idx1_eq, val_main_v0_apply]
  refine Finset.sum_congr rfl fun d _ => ?_
  rw [lidx_eq, ridx_eq]

/-- The row sums: `Σ_m Σ_d x(b,n,d) · y(b,m,d)`. -/
theorem rowSums_apply (x y : (⟨S32x1024x256, .f32⟩ : BufTy).Contents (Elt Ideal)) (b : Fin 32) (n : Fin 1024) :
    val_main_v2 (F := Ideal) x y (ix2 b n) = ∑ m : Fin 1024, ∑ d : Fin 256, x (ix3 b n d) * y (ix3 b m d) := by
  rw [val_main_v2_apply, val_main_cst_0_apply, Ideal.ofBits_def, Ideal.ofBits_zero_f32, zero_add]
  refine Finset.sum_congr rfl fun m _ => ?_
  rw [idx2_eq, val_main_v0_apply]
  refine Finset.sum_congr rfl fun d _ => ?_
  rw [lidx_eq, ridx_eq]

/-- The reference's result at `(b, r)` is `scoreSums`: the joined array reads its first piece where `r < 1024`, its
    second, 1024 places back, elsewhere. -/
theorem reference_apply (x y : (⟨S32x1024x256, .f32⟩ : BufTy).Contents (Elt Ideal)) (b : Fin 32) (r : Fin 2048) :
    val_main_v3 (F := Ideal) x y (ix2 b r) = scoreSums x y b r := by
  unfold val_main_v3 scoreSums
  by_cases h : r.val < 1024
  · rw [dif_pos h]
    refine (concatenate_pair_apply_left (s₁ := S32x1024) (s₂ := S32x1024) (1 : Fin 2) _ _ _ (ix2 b r) rfl
      (ix2 b (⟨r.val, h⟩ : Fin 1024)) (fun a => by match a with | ⟨0, _⟩ => rfl | ⟨1, _⟩ => rfl)).trans ?_
    exact colSums_apply x y b _
  · rw [dif_neg h]
    refine (concatenate_pair_apply_right (s₁ := S32x1024) (s₂ := S32x1024) (1 : Fin 2) _ _ _ (ix2 b r) rfl rfl
      (ix2 b (⟨r.val - 1024, by have := r.isLt; omega⟩ : Fin 1024))
      (fun a => by
        match a with
        | ⟨0, _⟩ => exact fun _ => rfl
        | ⟨1, _⟩ => exact fun hne => absurd rfl hne)
      (by show r.val - 1024 + 1024 = r.val; omega)).trans ?_
    exact rowSums_apply x y b _

end Cert.PairSums

end
-- ==== Proof.KernelBlock.lean ====
/-
  What the kernel body computes on one batch, entry by entry.

  At a grid point the body holds one batch of each argument, `x` and `y` of shape [1, 1024, 256]. It sums each over its
  1024 rows (`xs(d) = Σ_n x(n,d)`, `ys(d) = Σ_m y(m,d)`), multiplies every row of `y` by `xs` and every row of `x` by
  `ys` entrywise, and sums each product along the 256 lanes. So the first stored piece holds, at place `r`,
  `Σ_d y(r,d) · Σ_n x(n,d)`, and the second `Σ_d x(r,d) · Σ_m y(m,d)`.
-/
import proofs.«118468_j6691559047734_2_alg».proof.Proof.Gen.KernelIdeal.Skeleton
import Idealize.ShloMosaic.Lib.ValueIdx
import Idealize.ShloMosaic.Lib.ValueLayout
import Idealize.ShloMosaic.PureOps.Ideal.Laws

noncomputable section

open scoped BigOperators

namespace Cert.PairSums

open Cert.KernelIdeal Cert.KernelIdeal.Gen Idealize.ShloMosaic Idealize.ShloMosaic.ValueIdx

variable [Cert.KernelIdeal.Facts]

/-- A vector of 1024 entries recast with two unit axes in front reads, at `(0, 0, r)`, its entry `r`. -/
theorem cast_row_apply {α : Type} (v : S1024.Idx → α) (h : S1024.ShapeCasts S1x1x1024) (u u' : Fin 1) (r : Fin 1024) :
    shapeCast S1x1x1024 v h (ix3 u u' r) = v (ix1 r) :=
  shapeCast_apply v h _ _ (by
    have hu : u.val = 0 := by omega
    have hu' : u'.val = 0 := by omega
    rw [Shape.rowMajor_val_three, Shape.rowMajor_val_one]
    show r.val = (u.val * 1 + u'.val) * 1024 + r.val
    rw [hu, hu']; omega)

/-- The sum over the 1024 rows of a [1024, 256] block, at lane `d`. -/
theorem sumRows_apply (v : FVec Ideal S1024x256 .f32) (h : S1024x256.Reduces [0] S256) (hφ : FKind.Formats .f32)
    (hacc : (0x00000000#32 : BitVec 32) = FKind.add.neutral .f32 hφ) (d : Fin 256) :
    multiReduction .add [0] S256 v 0x00000000#32 h hφ hacc (ix1 d) = ∑ n : Fin 1024, v (ix2 n d) := by
  refine (Ideal.multiReduction_add_single v _ h hφ hacc (ix1 d)).trans ?_
  show ∑ n : Fin 1024, v (h.lift (ix1 d) n) = _
  refine Finset.sum_congr rfl fun n _ => congrArg v ?_
  exact funext fun a => Fin.ext (by match a with | ⟨0, _⟩ => rfl | ⟨1, _⟩ => rfl)

/-- The sum along the 256 lanes of a [1024, 256] block, at row `r`. -/
theorem sumLanes_apply (v : FVec Ideal S1024x256 .f32) (h : S1024x256.Reduces [1] S1024) (hφ : FKind.Formats .f32)
    (hacc : (0x00000000#32 : BitVec 32) = FKind.add.neutral .f32 hφ) (r : Fin 1024) :
    multiReduction .add [1] S1024 v 0x00000000#32 h hφ hacc (ix1 r) = ∑ d : Fin 256, v (ix2 r d) := by
  refine (Ideal.multiReduction_add_single v _ h hφ hacc (ix1 r)).trans ?_
  show ∑ d : Fin 256, v (h.lift (ix1 r) d) = _
  refine Finset.sum_congr rfl fun d _ => congrArg v ?_
  exact funext fun a => Fin.ext (by match a with | ⟨0, _⟩ => rfl | ⟨1, _⟩ => rfl)

/-- One row vector `s` of 256 lanes, given a unit axis, spread over 1024 rows and multiplied into a block `v`, then
    summed along the lanes: at row `r`, `Σ_d v(r,d) · s(d)`. -/
theorem scaledLaneSum_apply (v : FVec Ideal S1024x256 .f32) (s : FVec Ideal S256 .f32)
    (hc : S256.ShapeCasts S1x256) (hb : S1x256.Broadcasts S1024x256) (h : S1024x256.Reduces [1] S1024)
    (hφ : FKind.Formats .f32) (hacc : (0x00000000#32 : BitVec 32) = FKind.add.neutral .f32 hφ) (r : Fin 1024) :
    multiReduction .add [1] S1024 (mulf v (broadcastTo S1024x256 (shapeCast S1x256 s hc) hb)) 0x00000000#32 h hφ hacc (ix1 r)
      = ∑ d : Fin 256, v (ix2 r d) * s (ix1 d) := by
  refine (sumLanes_apply _ h hφ hacc r).trans (Finset.sum_congr rfl fun d _ => ?_)
  rw [mulf_apply, broadcastTo_1b_ab_apply, shapeCast_a_1a_apply]

/-- The first stored piece at place `r`: `Σ_d y(r,d) · Σ_n x(n,d)`. -/
theorem pay3_apply (x y : Vec Ideal S1x1024x256 .f32) (u u' : Fin 1) (r : Fin 1024) :
    k0_pay3 (F := Ideal) x y (ix3 u u' r)
      = ∑ d : Fin 256, y (ix3 (0 : Fin 1) r d) * ∑ n : Fin 1024, x (ix3 (0 : Fin 1) n d) := by
  unfold k0_pay3 k0_pay1 k0_pay2
  dsimp only
  refine (cast_row_apply _ _ u u' r).trans ?_
  refine (scaledLaneSum_apply _ _ _ _ _ _ _ r).trans (Finset.sum_congr rfl fun d _ => ?_)
  rw [shapeCast_1ab_ab_apply]
  refine congrArg (_ * ·) ?_
  refine (sumRows_apply _ _ _ _ d).trans (Finset.sum_congr rfl fun n _ => ?_)
  rw [shapeCast_1ab_ab_apply]

/-- The second stored piece at place `r`: `Σ_d x(r,d) · Σ_m y(m,d)`. -/
theorem pay4_apply (x y : Vec Ideal S1x1024x256 .f32) (u u' : Fin 1) (r : Fin 1024) :
    k0_pay4 (F := Ideal) x y (ix3 u u' r)
      = ∑ d : Fin 256, x (ix3 (0 : Fin 1) r d) * ∑ m : Fin 1024, y (ix3 (0 : Fin 1) m d) := by
  unfold k0_pay4 k0_pay1 k0_pay2
  dsimp only
  refine (cast_row_apply _ _ u u' r).trans ?_
  refine (scaledLaneSum_apply _ _ _ _ _ _ _ r).trans (Finset.sum_congr rfl fun d _ => ?_)
  rw [shapeCast_1ab_ab_apply]
  refine congrArg (_ * ·) ?_
  refine (sumRows_apply _ _ _ _ d).trans (Finset.sum_congr rfl fun m _ => ?_)
  rw [shapeCast_1ab_ab_apply]

end Cert.PairSums

end
-- ==== Proof.KernelValue.lean ====
/-
  The kernel program's result as one function of the two argument arrays.

  The grid has one point per batch. At point `t` the body is handed batch `t` of each argument, and what it leaves
  in the output's staging buffer is row `(t, 0, ·)` of the [32, 1, 2048] array: the factored sums of batch `t`. The
  32 rows tile the array, so after the last point the array holds the factored sums of every batch; the
  reshape that follows drops the unit axis, `(b, 0, r) ↦ (b, r)`.
-/
import proofs.«118468_j6691559047734_2_alg».proof.Proof.Gen.KernelIdeal.Frame
import proofs.«118468_j6691559047734_2_alg».proof.Proof.KernelBlock
import proofs.«118468_j6691559047734_2_alg».proof.Proof.Spec
import Idealize.ShloMosaic.Lib.Pipeline.Value
import Idealize.ShloMosaic.Lib.StableHlo.Run
import Idealize.ShloMosaic.Lib.Tactic

noncomputable section

open scoped BigOperators

open Idealize.ShloMosaic Idealize.ShloMosaic.TcCoe Idealize.SL.Sem
open Idealize.ShloMosaic.Pipeline (Dat)

namespace Cert.PairSums

open Cert.KernelIdeal Cert.KernelIdeal.Gen Idealize.ShloMosaic.ValueIdx

variable (m : (ℓ : Loc nD τ sig) → Buf (Elt Ideal) ℓ) (ρ : Dev nD → PrngReg)

theorem zero3 : (![0, 0, 0] : Fin 3 → Nat) = fun _ => 0 := funext fun a => by fin_cases a <;> rfl

/-- What the body leaves in the output's staging buffer, from the two input blocks: at `(0, 0, q)` the factored
    sums of the one batch the blocks hold. The two stored pieces are the two halves. -/
theorem block_eq (x y : Vec Ideal S1x1024x256 .f32) (j : S1x1x2048.Idx) :
    out0_2 x y j = factoredSums (B := 1) x y 0 (j 2) := by
  unfold out0_2
  simp only [View.ld_unit_zero (S := S1x1024x256) zero3]
  refine View.canon_apply_of_pieces (Val := Elt Ideal) (e := .f32)
    ((fun j : S1x1x2048.Idx => factoredSums (B := 1) x y 0 (j 2)) : S1x1x2048.Idx → Elt Ideal .f32) _ ?_ j (cover0_2 _ _ j)
  intro p hp
  simp only [List.mem_cons, List.mem_nil_iff, or_false] at hp
  rcases hp with rfl | rfl
  · intro z
    obtain ⟨u, u', r, rfl⟩ : ∃ (u u' : Fin 1) (r : Fin 1024), z = ix3 u u' r := ⟨z 0, z 1, z 2, eq_ix3 z⟩
    show k0_pay4 x y (ix3 u u' r) = factoredSums (B := 1) x y 0 (r0_2.emb (ix3 u u' r) 2)
    rw [pay4_apply]
    exact (factoredSums_hi x y 0 _ r (by show 1024 + 1 * r.val = 1024 + r.val; omega)).symm
  · intro z
    obtain ⟨u, u', r, rfl⟩ : ∃ (u u' : Fin 1) (r : Fin 1024), z = ix3 u u' r := ⟨z 0, z 1, z 2, eq_ix3 z⟩
    show k0_pay3 x y (ix3 u u' r) = factoredSums (B := 1) x y 0 (r0_1.emb (ix3 u u' r) 2)
    rw [pay3_apply]
    exact (factoredSums_lo x y 0 _ r (by show 0 + 1 * r.val = r.val; omega)).symm

/-- Every window's block index at grid point `t` is `(t, 0, 0)`: the printed index maps, decided over the 32 points. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The first input block at point `t` is batch `t` of the first argument. -/
theorem iblk0_apply (c : Dev nD) (t : Fin cfg0.N) (b : Fin 32) (hb : b.val = t.val) (n : Fin 1024) (d : Fin 256) :
    (iblk m c 0 t : Vec Ideal S1x1024x256 .f32) (ix3 (0 : Fin 1) n d)
      = (m ((c : Thread nD τ).loc main_arg0) : S32x1024x256.Idx → Elt Ideal .f32) (ix3 b n d) := by
  obtain ⟨e0, e1, e2, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * 0 = b.val; rw [e0]; omega
  | ⟨1, _⟩ => show win0_0.index t 1 * 1024 + 1 * n.val = n.val; rw [e1]; omega
  | ⟨2, _⟩ => show win0_0.index t 2 * 256 + 1 * d.val = d.val; rw [e2]; omega

/-- The second input block at point `t` is batch `t` of the second argument. -/
theorem iblk1_apply (c : Dev nD) (t : Fin cfg0.N) (b : Fin 32) (hb : b.val = t.val) (n : Fin 1024) (d : Fin 256) :
    (iblk m c 1 t : Vec Ideal S1x1024x256 .f32) (ix3 (0 : Fin 1) n d)
      = (m ((c : Thread nD τ).loc main_arg1) : S32x1024x256.Idx → Elt Ideal .f32) (ix3 b n d) := by
  obtain ⟨-, -, -, e0, e1, e2, -⟩ := idx_facts t
  unfold iblk
  rw [View.read_apply]
  show V m c main_arg1 _ = m (c.tc.loc main_arg1) _
  rw [V_main_arg1]
  congr 1
  funext a
  apply Fin.ext
  match a with
  | ⟨0, _⟩ => show win0_1.index t 0 * 1 + 1 * 0 = b.val; rw [e0]; omega
  | ⟨1, _⟩ => show win0_1.index t 1 * 1024 + 1 * n.val = n.val; rw [e1]; omega
  | ⟨2, _⟩ => show win0_1.index t 2 * 256 + 1 * d.val = d.val; rw [e2]; omega

/-- The [32, 1, 2048] array the region leaves: row `(b, 0, ·)` holds the factored sums of batch `b`. -/
def rows (X Y : S32x1024x256.Idx → Elt Ideal .f32) : S32x1x2048.Idx → Elt Ideal .f32 :=
  fun i => factoredSums (B := 32) X Y (i 0) (i 2)

/-- What point `t` writes back is row `t` of `rows`: the body's result on batch `t` of the arguments. -/
theorem flushed_eq (c : Dev nD) (t : Fin cfg0.N) :
    (dats m 0 c).flushed 2 t = ((cfg0.win 2).blk t).view.read (Elt Ideal)
      (rows (m ((c : Thread nD τ).loc main_arg0)) (m ((c : Thread nD τ).loc main_arg1))) := by
  obtain ⟨-, -, -, -, -, -, e0, e1, e2⟩ := idx_facts t
  show (cfg0.win 2).cut (grid0.coords t) ((dats m 0 c).after 2 t) = _
  rw [after0_2]
  funext j
  rw [View.read_apply]
  show out0_2 (iblk m c 0 t) (iblk m c 1 t) ((cfg0.win 2).xinj (grid0.coords t) j)
    = rows _ _ (((cfg0.win 2).blk t).view.emb j)
  have hb : ((((cfg0.win 2).blk t).view.emb j) 0).val = t.val := by
    show win0_2.index t 0 * 1 + 1 * (j 0).val = t.val
    have : (j 0).val < 1 := (j 0).isLt
    rw [e0]; omega
  have hr : ((cfg0.win 2).xinj (grid0.coords t) j 2).val = ((((cfg0.win 2).blk t).view.emb j) 2).val := by
    show (j 2).val = win0_2.index t 2 * 2048 + 1 * (j 2).val
    rw [e2]; omega
  refine (block_eq _ _ _).trans ?_
  exact factoredSums_congr _ _ _ _ 0 _ (fun n d => iblk0_apply m c t _ hb n d) (fun n d => iblk1_apply m c t _ hb n d) _ _ hr

/-- Every row of the array is some point's block: row `b` is point `b`'s. -/
theorem cover (i : S32x1x2048.Idx) :
    ∃ t : Fin cfg0.N, (cfg0.win 2).flush t = true ∧ i ∈ ((cfg0.win 2).blk t).view.set := by
  have hN : cfg0.N = 32 := N_0
  have h0 : (i 0).val < 32 := (i 0).isLt
  have h1 : (i 1).val < 1 := (i 1).isLt
  have h2 : (i 2).val < 2048 := (i 2).isLt
  let t : Fin cfg0.N := ⟨(i 0).val, by omega⟩
  obtain ⟨-, -, -, -, -, -, e0, e1, e2⟩ := idx_facts t
  have e0' : win0_2.index t 0 = (i 0).val := e0
  refine ⟨t, flush0_2 t, ?_⟩
  show i ∈ ((View.whole main_v0).slice (win0_2.rect t)).set
  rw [View.set_slice_whole, Rect.mem_set_unit]
  intro a
  match a with
  | ⟨0, _⟩ => show win0_2.index t 0 * 1 ≤ (i 0).val ∧ (i 0).val < win0_2.index t 0 * 1 + 1; rw [e0']; omega
  | ⟨1, _⟩ => show win0_2.index t 1 * 1 ≤ (i 1).val ∧ (i 1).val < win0_2.index t 1 * 1 + 1; rw [e1]; omega
  | ⟨2, _⟩ => show win0_2.index t 2 * 2048 ≤ (i 2).val ∧ (i 2).val < win0_2.index t 2 * 2048 + 2048; rw [e2]; omega

/-- So after the last point the region's array holds `rows` of the arguments. -/
theorem final (c : Dev nD) : (dats m 0 c).arrAt 2 cfg0.N
    = rows (m ((c : Thread nD τ).loc main_arg0)) (m ((c : Thread nD τ).loc main_arg1)) :=
  (dats m 0 c).arrAt_eq_of_cover 2 _ (fun t _ => flushed_eq m c t) cover

/-- The result: entry `(b, r)` holds the factored sums of batch `b` at place `r`. -/
def sums (X Y : S32x1024x256.Idx → Elt Ideal .f32) : S32x2048.Idx → Elt Ideal .f32 :=
  fun j => factoredSums (B := 32) X Y (j 0) (j 1)

/-- Dropping the unit axis: the [32, 2048] recast of a [32, 1, 2048] array reads, at `(b, r)`, the array at `(b, 0, r)`. -/
theorem reshape_apply (A : S32x1x2048.Idx → Elt Ideal .f32) (h : S32x1x2048.ShapeCasts S32x2048) (b : Fin 32) (r : Fin 2048) :
    shapeCast S32x2048 A h (ix2 b r) = A (ix3 b (0 : Fin 1) r) :=
  shapeCast_apply A h _ _ (by
    rw [Shape.rowMajor_val_three, Shape.rowMajor_val_two]
    show (b.val * 1 + 0) * 2048 + r.val = b.val * 2048 + r.val
    omega)

/-- The recast of `rows` is `sums`. -/
theorem reshape_rows (X Y : S32x1024x256.Idx → Elt Ideal .f32) (h : S32x1x2048.ShapeCasts S32x2048) :
    shapeCast S32x2048 (rows X Y) h = sums X Y := by
  funext j
  obtain ⟨b, r, rfl⟩ : ∃ (b : Fin 32) (r : Fin 2048), j = ix2 b r := ⟨j 0, j 1, eq_ix2 j⟩
  exact reshape_apply _ h b r

/-- What the line after the region leaves in the program's result: the recast of the region's array. -/
theorem tail_eq (c : Dev nD) :
    Pipeline.afterTail₀ cfgs (dats m) 0 (V0 m) [hostOps1] c main_v1
      = sums (m ((c : Thread nD τ).loc main_arg0)) (m ((c : Thread nD τ).loc main_arg1)) := by
  unfold Pipeline.afterTail₀
  show StableHlo.after hostOps1 _ (Proc.devRef .tc main_v1) = _
  after_results
  have hw : Pipeline.withArrays (cfgs 0).spec c (V0 m c) (fun w => (dats m 0 c).arrAt w (cfgs 0).N) (Proc.devRef .tc main_v0)
      = rows (m ((c : Thread nD τ).loc main_arg0)) (m ((c : Thread nD τ).loc main_arg1)) :=
    (Pipeline.withArrays_arr spec0 launch0.win.arr_inj c _ _ 2).trans (final m c)
  rw [hw]
  exact reshape_rows _ _ _

/-- The idealized kernel program's run, read: every weakly fair execution ends with the result at `sums` of the two
    arguments and the arguments as they were. -/
theorem run : θ_run defs (onTc (τ := τ) (main (F := Ideal))) ⟨m, fun _ => 0, ρ⟩ fun r => ∀ c : Dev nD,
      r.2.mem ((c : Thread nD τ).loc main_v1)
        = sums (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v1 (Pipeline.mem_restRefs_of main_v1 rfl (fun w => by fin_cases w <;> decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.PairSums

end
-- ==== Proof.lean ====
/-
  The kernel against its reference: column sums and row sums of a batch of inner-product matrices.

  For each of 32 batches, with `x(b)` and `y(b)` of shape [1024, 256], let `s(n, m) = Σ_d x(b,n,d) · y(b,m,d)`. The
  reference forms `s` and returns, per batch, the 1024 column sums `Σ_n s(n, m)` followed by the 1024 row sums
  `Σ_m s(n, m)`. The kernel never forms `s`: it sums `x(b)` and `y(b)` over their rows first and returns
  `Σ_d y(b,m,d) · (Σ_n x(b,n,d))` and `Σ_d x(b,n,d) · (Σ_m y(b,m,d))`. The two agree by distributivity and an exchange
  of finite sums — on real numbers; at an infinite entry distributivity fails on the extended reals, and this is
  where the precondition (every entry finite) is used.

  Proof/Spec.lean has the two forms and the law; Proof/Finite.lean reads the precondition back as "every entry is a
  real number"; Proof/RefValue.lean reads the reference's result entry by entry; Proof/KernelBlock.lean the kernel
  body's two stored pieces; Proof/KernelValue.lean puts the grid's 32 rows together and follows the final reshape.
  Here the five claims are assembled. The idealized kernel program is the kernel's own text read over the extended
  reals (no operation was rewritten), so the claim that relates the two is trivial.
-/
import proofs.«118468_j6691559047734_2_alg».proof.Defs
import proofs.«118468_j6691559047734_2_alg».proof.Proof.Gen.Kernel
import proofs.«118468_j6691559047734_2_alg».proof.Proof.Gen.Kernel.Skeleton
import proofs.«118468_j6691559047734_2_alg».proof.Proof.Gen.Kernel.Launch
import proofs.«118468_j6691559047734_2_alg».proof.Proof.Gen.Kernel.Points
import proofs.«118468_j6691559047734_2_alg».proof.Proof.Gen.Kernel.Frame
import proofs.«118468_j6691559047734_2_alg».proof.Proof.Gen.KernelIdeal
import proofs.«118468_j6691559047734_2_alg».proof.Proof.Gen.KernelIdeal.Skeleton
import proofs.«118468_j6691559047734_2_alg».proof.Proof.Gen.KernelIdeal.Launch
import proofs.«118468_j6691559047734_2_alg».proof.Proof.Gen.KernelIdeal.Points
import proofs.«118468_j6691559047734_2_alg».proof.Proof.Gen.KernelIdeal.Frame
import proofs.«118468_j6691559047734_2_alg».proof.Proof.Gen.ReferenceIdeal
import proofs.«118468_j6691559047734_2_alg».proof.Proof.Gen.ReferenceIdeal.Run
import proofs.«118468_j6691559047734_2_alg».proof.Proof.Gen.ReferenceIdeal.Read
import proofs.«118468_j6691559047734_2_alg».proof.Proof.Gen.Pre_finite_inputs
import proofs.«118468_j6691559047734_2_alg».proof.Proof.Spec
import proofs.«118468_j6691559047734_2_alg».proof.Proof.Finite
import proofs.«118468_j6691559047734_2_alg».proof.Proof.RefValue
import proofs.«118468_j6691559047734_2_alg».proof.Proof.KernelValue
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel program as printed terminates without a fault and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on finite arguments, the kernel program ends with the factored sums and the
    reference with the sums of the inner-product matrix; on real entries these are one array. -/
theorem algebraic : Cert.algebraic_KernelIdeal_ReferenceIdeal := by
  intro m ρ m' ρ' hpre hagree
  refine ⟨_, Cert.PairSums.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v3_eq]
  obtain ⟨hx, hy⟩ := Cert.PairSums.real_of_pre _ _ (hpre c)
  funext j
  obtain ⟨b, r, rfl⟩ : ∃ (b : Fin 32) (r : Fin 2048), j = ix2 b r := ⟨j 0, j 1, eq_ix2 j⟩
  exact (Cert.PairSums.reference_apply _ _ b r).trans (Cert.PairSums.scoreSums_eq_factoredSums _ _ hx hy b r)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
